-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S16x4096 .f32) (main_arg1 : IVec S11008x4096 32) (main_arg2 : FVec F S11008x1 .f32) (main_arg3 : FVec F S11008 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S16x4096 : Shape := ⟨2, ![16, 4096]⟩
abbrev S11008x4096 : Shape := ⟨2, ![11008, 4096]⟩
abbrev S11008x1 : Shape := ⟨2, ![11008, 1]⟩
abbrev S11008 : Shape := ⟨1, ![11008]⟩
abbrev S1x11008 : Shape := ⟨2, ![1, 11008]⟩
abbrev S16x11008 : Shape := ⟨2, ![16, 11008]⟩
abbrev S512x4096 : Shape := ⟨2, ![512, 4096]⟩
abbrev S1x512 : Shape := ⟨2, ![1, 512]⟩
abbrev S16x512 : Shape := ⟨2, ![16, 512]⟩

abbrev nBuf : Space → Nat
  | .hbm => 7
  | .vmem => 9
  | .smem => 0
  | _ => 0

abbrev bufTy : (tb : Table) → Fin (tcTables nBuf tb) → BufTy
  | .hbm, ⟨0, _⟩ => ⟨S16x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S1x11008, .f32⟩
  | .hbm, ⟨5, _⟩ => ⟨S1x11008, .f32⟩
  | .hbm, ⟨6, _⟩ => ⟨S16x11008, .f32⟩
  | .local _ .vmem, ⟨0, _⟩ => ⟨S16x4096, .f32⟩
  | .local _ .vmem, ⟨1, _⟩ => ⟨S512x4096, .i32⟩
  | .local _ .vmem, ⟨2, _⟩ => ⟨S512x4096, .i32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S16x512, .f32⟩
  | .local _ .vmem, ⟨8, _⟩ => ⟨S16x512, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S11008x1_S1x11008 : S11008x1.ShapeCasts S1x11008
  shapeCasts_S11008_S1x11008 : S11008.ShapeCasts S1x11008
  inb_S16x4096_S16x4096_0_0 : ∀ a, (![0, 0] : Fin 2 → Nat) a + S16x4096.size a ≤ S16x4096.size a
  h_S16x4096 : 0 < S16x4096.numel
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  inb_S16x512_S16x512_0_0 : ∀ a, (![0, 0] : Fin 2 → Nat) a + S16x512.size a ≤ S16x512.size a
  h_S16x512 : 0 < S16x512.numel
  dot_S16x4096_S512x4096_S16x512_1_1_0_0_n_n_wf : DotDims.WF S16x4096 S512x4096 S16x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S16x4096.size a
  hwx0_0 : ∀ i : grid0.Coords, EltTy.bits .f32 = 32 ∨ (Rect.block (s := S16x4096) S16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x4096.size a < S11008x4096.size a
  hwx0_1 : ∀ i : grid0.Coords, EltTy.bits .i32 = 32 ∨ (Rect.unit (s := S11008x4096) (fun a => cc0_transform_1 i a * S512x4096.size a) (fun a => (Pipeline.Clip.of (cc0_transform_1 i a) (S512x4096.size a) (S11008x4096.size a)).extent (S512x4096.size a)) fun a => Pipeline.Clip.inb (Pipeline.Clip.ok_of (hstart0_1 i a))).WholeWords (EltTy.packing .i32)
  hwxs0_1 : ∀ i : grid0.Coords, EltTy.bits .i32 = 32 ∨ (Rect.unit (s := S512x4096) (fun _ => 0) (fun a => (Pipeline.Clip.of (cc0_transform_1 i a) (S512x4096.size a) (S11008x4096.size a)).extent (S512x4096.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x512.size a < S1x11008.size a
  hwx0_2 : ∀ i : grid0.Coords, EltTy.bits .f32 = 32 ∨ (Rect.unit (s := S1x11008) (fun a => cc0_transform_2 i a * S1x512.size a) (fun a => (Pipeline.Clip.of (cc0_transform_2 i a) (S1x512.size a) (S1x11008.size a)).extent (S1x512.size a)) fun a => Pipeline.Clip.inb (Pipeline.Clip.ok_of (hstart0_2 i a))).WholeWords (EltTy.packing .f32)
  hwxs0_2 : ∀ i : grid0.Coords, EltTy.bits .f32 = 32 ∨ (Rect.unit (s := S1x512) (fun _ => 0) (fun a => (Pipeline.Clip.of (cc0_transform_2 i a) (S1x512.size a) (S1x11008.size a)).extent (S1x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x512.size a < S1x11008.size a
  hwx0_3 : ∀ i : grid0.Coords, EltTy.bits .f32 = 32 ∨ (Rect.unit (s := S1x11008) (fun a => cc0_transform_3 i a * S1x512.size a) (fun a => (Pipeline.Clip.of (cc0_transform_3 i a) (S1x512.size a) (S1x11008.size a)).extent (S1x512.size a)) fun a => Pipeline.Clip.inb (Pipeline.Clip.ok_of (hstart0_3 i a))).WholeWords (EltTy.packing .f32)
  hwxs0_3 : ∀ i : grid0.Coords, EltTy.bits .f32 = 32 ∨ (Rect.unit (s := S1x512) (fun _ => 0) (fun a => (Pipeline.Clip.of (cc0_transform_3 i a) (S1x512.size a) (S1x11008.size a)).extent (S1x512.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S16x512.size a < S16x11008.size a
  hwx0_4 : ∀ i : grid0.Coords, EltTy.bits .f32 = 32 ∨ (Rect.unit (s := S16x11008) (fun a => cc0_transform_4 i a * S16x512.size a) (fun a => (Pipeline.Clip.of (cc0_transform_4 i a) (S16x512.size a) (S16x11008.size a)).extent (S16x512.size a)) fun a => Pipeline.Clip.inb (Pipeline.Clip.ok_of (hstart0_4 i a))).WholeWords (EltTy.packing .f32)
  hwxs0_4 : ∀ i : grid0.Coords, EltTy.bits .f32 = 32 ∨ (Rect.unit (s := S16x512) (fun _ => 0) (fun a => (Pipeline.Clip.of (cc0_transform_4 i a) (S16x512.size a) (S16x11008.size a)).extent (S16x512.size a)) fun a => (Nat.zero_add _).trans_le (Pipeline.Clip.extent_le (Pipeline.Clip.ok_of (hstart0_4 i a)))).WholeWords (EltTy.packing .f32)

variable [Facts₀]

def dot_S16x4096_S512x4096_S16x512_1_1_0_0_n_n : DotDims S16x4096 S512x4096 S16x512 where
  lhsContracting := [1]
  rhsContracting := [1]
  lhsNonContracting := [0]
  rhsNonContracting := [0]
  lhsBatch := []
  rhsBatch := []
  wf := dot_S16x4096_S512x4096_S16x512_1_1_0_0_n_n_wf

abbrev win0_0 : Pipeline.Window sig grid0 :=
  Pipeline.Window.ofSpec (Memref.whole main_arg0) S16x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S1x512.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v2) S16x512.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096 : Shape := ⟨2, ![16, 4096]⟩
abbrev S11008x4096 : Shape := ⟨2, ![11008, 4096]⟩
abbrev S11008x1 : Shape := ⟨2, ![11008, 1]⟩
abbrev S11008 : Shape := ⟨1, ![11008]⟩
abbrev S16x11008 : Shape := ⟨2, ![16, 11008]⟩
abbrev S1x11008 : Shape := ⟨2, ![1, 11008]⟩

abbrev nBuf : Space → Nat
  | .hbm => 11
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S11008x4096, .f32⟩
  | .hbm, ⟨5, _⟩ => ⟨S11008x4096, .f32⟩
  | .hbm, ⟨6, _⟩ => ⟨S11008x4096, .f32⟩
  | .hbm, ⟨7, _⟩ => ⟨S16x11008, .f32⟩
  | .hbm, ⟨8, _⟩ => ⟨S1x11008, .f32⟩
  | .hbm, ⟨9, _⟩ => ⟨S16x11008, .f32⟩
  | .hbm, ⟨10, _⟩ => ⟨S16x11008, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S11008x1_S11008x4096_0_1 : S11008x1.BroadcastsInDim S11008x4096 (![0, 1] : Fin 2 → Fin S11008x4096.rank)
  bcast_S11008_S1x11008_1 : S11008.BroadcastsInDim S1x11008 (![1] : Fin 1 → Fin S1x11008.rank)
  bcast_S1x11008_S16x11008_0_1 : S1x11008.BroadcastsInDim S16x11008 (![0, 1] : Fin 2 → Fin S16x11008.rank)
  dot_S16x4096_S11008x4096_S16x11008_1_1_0_0_n_n_wf : DotDims.WF S16x4096 S11008x4096 S16x11008 [1] [1] [0] [0] [] []

variable [Facts₀]

def dot_S16x4096_S11008x4096_S16x11008_1_1_0_0_n_n : DotDims S16x4096 S11008x4096 S16x11008 where
  lhsContracting := [1]
  rhsContracting := [1]
  lhsNonContracting := [0]
  rhsNonContracting := [0]
  lhsBatch := []
  rhsBatch := []
  wf := dot_S16x4096_S11008x4096_S16x11008_1_1_0_0_n_n_wf

class Facts : Prop extends Facts₀ where

variable [Facts]
-- ==== Proof.BodyKernel.lean ====
/-
  The kernel body as one step on whole staging buffers, at any float instance.

  The body loads its four input buffers whole (the activations `x` of 16 × 4096, a tile of 512 weight rows of 4096
  integers, a row of 512 scales, a row of 512 biases), computes `(x · wᵀ) * scale + bias` as one 16 × 512 value, and
  stores it over the whole output buffer.  So whatever the five buffers hold when the body starts, the four inputs hold
  the same afterwards and the output holds that value of the four inputs' contents.  Nothing is assumed of the contents:
  rows of a buffer that lie past the end of the array it stages are read and computed with like any others.
-/
import proofs.«166543_j19662360281096_2_alg».proof.Proof.Gen.Kernel.Frame
import proofs.«166543_j19662360281096_2_alg».proof.Proof.Gen.Kernel.Skeleton

set_option maxRecDepth 16384

noncomputable section

namespace Cert.Kernel.Body

open Cert.Kernel Cert.Kernel.Gen
open Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is its whole buffer -/

abbrev rX : Rect S16x4096 := Rect.unit (s := S16x4096) ![0, 0] S16x4096.size Facts₀.inb_S16x4096_S16x4096_0_0
abbrev rW : Rect S512x4096 := Rect.unit (s := S512x4096) ![0, 0] S512x4096.size Facts₀.inb_S512x4096_S512x4096_0_0
abbrev rS : Rect S1x512 := Rect.unit (s := S1x512) ![0, 0] S1x512.size Facts₀.inb_S1x512_S1x512_0_0
abbrev rO : Rect S16x512 := Rect.unit (s := S16x512) ![0, 0] S16x512.size Facts₀.inb_S16x512_S16x512_0_0

/-- What the output buffer holds after the body, from the four input buffers' contents: its one store, of the
    body's arithmetic applied to the four loads. -/
def outBuf (x0 : Vec F S16x4096 .f32) (x1 : Vec F S512x4096 .i32) (x2 : Vec F S1x512 .f32) (x3 : Vec F S1x512 .f32) :
    Vec F S16x512 .f32 :=
  View.canon [⟨rO, k0_pay1 (View.ld x0 rX) (View.ld x1 rW) (View.ld x2 rS) (View.ld x3 rS)⟩]

/-- The one store covers the output buffer. -/
theorem cover_out (p0 : Vec F S16x512 .f32) (y : S16x512.Idx) :
    ∃ pc ∈ ([⟨rO, p0⟩] : List (View.Piece (Elt F) S16x512 .f32)), y ∈ pc.1.set :=
  View.cover_of_tiled [⟨rO, p0⟩] S16x512.size (by rfl) y

set_option maxHeartbeats 1000000 in
/-- The body on whole staging memrefs, the four inputs' at contents `x0 … x3` and the output's at anything, runs to
    the continuation holding the inputs' as they were and the output's at `outBuf x0 x1 x2 x3`. -/
theorem sound_kernel (c : Dev nD) (E : Set ℕ) (i : grid0.Coords)
    (arg1 : Memref sig .tc .vmem S16x4096 .f32) (harg1 : arg1.IsWhole)
    (arg2 : Memref sig .tc .vmem S512x4096 .i32) (harg2 : arg2.IsWhole)
    (arg3 : Memref sig .tc .vmem S1x512 .f32) (harg3 : arg3.IsWhole)
    (arg4 : Memref sig .tc .vmem S1x512 .f32) (harg4 : arg4.IsWhole)
    (arg5 : Memref sig .tc .vmem S16x512 .f32) (harg5 : arg5.IsWhole)
    (x0 : Vec F S16x4096 .f32) (x1 : Vec F S512x4096 .i32) (x2 : Vec F S1x512 .f32) (x3 : Vec F S1x512 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outBuf x0 x1 x2 x3)) -∗ K ⟨⟩))
      ⊢ wp frame (wpE (defs₀ (F := F)) Variants.none c none) E
          (cc0__kernel i arg1 harg1 arg2 harg2 arg3 harg3 arg4 harg4 arg5 harg5) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.Kernel.Body

end
-- ==== Proof.FrameBits.lean ====
/-
  The frame of the kernel as printed (read at the word level): @main terminates, nothing faults, and the four
  argument arrays end as they began.

  The frame says nothing of what the result holds, so the proof data is relational and constrains nothing: whatever
  the five staging buffers hold when the body is called — the weight tile's, the scale row's and the bias row's
  buffers hold words nothing names in the rows past the end of their arrays at the last grid point — the body runs
  (`sound_kernel`) and leaves them at some contents.  The activations and the weights are arrays the region stages
  and never writes back, so they end at their entry contents; the scale column and the bias vector are not staged at
  all (their row-shaped copies are), so they pass the region by.
-/
import proofs.«166543_j19662360281096_2_alg».proof.Proof.BodyKernel

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data of the one pipeline on core `c`: the arrays as the region finds them; of what the
    body leaves in a staging buffer, nothing; the class's invariant; nothing owed; full shares. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body obligation: at every point, whatever the five current staging buffers hold, the body runs and hands
    them back. -/
theorem body_obligation (c : Dev nD) :
    (rdats (F := F) m c).BodyObligation (defs₀ (F := F)) Variants.none () Set.univ := fun t Y _ => by
  rw [bigSep_W0, bigSep_W0]
  rw [show (rdats m c).Φ t.succ = (rdats m c).Φ t.castSucc from rfl,
    show (rdats m c).owesAt () t.succ = (rdats m c).owesAt () t.castSucc from rfl]
  change _ ⊢ wp frame (wpE (defs₀ (F := F)) Variants.none c none) Set.univ (bodyAt0 t) _
  unfold bodyAt0
  iintro ⟨HΦ, Ho, H0, H1, H2, H3, H4⟩
  iapply (sound_kernel c Set.univ (grid0.coords t) _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  · iexists (outBuf (Y 0) (Y 1) (Y 2) (Y 3)); isplitr; · ipureintro; trivial
    iexact H4

set_option backward.isDefEq.respectTransparency.types false in
/-- The run: every weakly fair execution of @main terminates, nothing faulting, every staged array at contents the
    relational data allows and every other unscoped buffer as the region found it. -/
theorem run_main : θ_run defs (onTc (τ := τ) (main (F := F))) (s₀ m ρ) (RDat.FramePost cfg0 (rdats m) (V m)) :=
  RDat.θ_run_frame cfgs (0 : Fin 1) launch0 defs₀ Variants.none (rdats m) m ρ main
    (hbody := body_obligation m) (hshare := fun c => (rdats m c).share_full fun _ => rfl)
    (howed := fun _ _ => rfl) (V := V m) (hmain := hmain m Variants.none) (hA := fun _ _ => rfl) (hΦ := fun _ _ => rfl)

/-- The frame: the four argument arrays end as they began.  The activations and the weights are staged inputs, never
    written back; the scale column and the bias vector are buffers no window stages. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(show r.2.mem ((c.tc : Thread nD τ).loc main_arg0) = (rdats m c).A 0 from
        by have h0 := (h c).1 0; rw [(rdats m c).ArrAt_in 0 rfl] at h0; exact h0).trans (V_main_arg0 m c),
      (show r.2.mem ((c.tc : Thread nD τ).loc main_arg1) = (rdats m c).A 1 from
        by have h1 := (h c).1 1; rw [(rdats m c).ArrAt_in 1 rfl] at h1; exact h1).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Kernel.Body

end
-- ==== Proof.BodyIdeal.lean ====
/-
  The kernel body as one step on whole staging buffers, at any float instance.

  The body loads its four input buffers whole (the activations `x` of 16 × 4096, a tile of 512 weight rows of 4096
  integers, a row of 512 scales, a row of 512 biases), computes `(x · wᵀ) * scale + bias` as one 16 × 512 value, and
  stores it over the whole output buffer.  So whatever the five buffers hold when the body starts, the four inputs hold
  the same afterwards and the output holds that value of the four inputs' contents.  Nothing is assumed of the contents:
  rows of a buffer that lie past the end of the array it stages are read and computed with like any others.
-/
import proofs.«166543_j19662360281096_2_alg».proof.Proof.Gen.KernelIdeal.Frame
import proofs.«166543_j19662360281096_2_alg».proof.Proof.Gen.KernelIdeal.Skeleton

set_option maxRecDepth 16384

noncomputable section

namespace Cert.KernelIdeal.Body

open Cert.KernelIdeal Cert.KernelIdeal.Gen
open Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is its whole buffer -/

abbrev rX : Rect S16x4096 := Rect.unit (s := S16x4096) ![0, 0] S16x4096.size Facts₀.inb_S16x4096_S16x4096_0_0
abbrev rW : Rect S512x4096 := Rect.unit (s := S512x4096) ![0, 0] S512x4096.size Facts₀.inb_S512x4096_S512x4096_0_0
abbrev rS : Rect S1x512 := Rect.unit (s := S1x512) ![0, 0] S1x512.size Facts₀.inb_S1x512_S1x512_0_0
abbrev rO : Rect S16x512 := Rect.unit (s := S16x512) ![0, 0] S16x512.size Facts₀.inb_S16x512_S16x512_0_0

/-- What the output buffer holds after the body, from the four input buffers' contents: its one store, of the
    body's arithmetic applied to the four loads. -/
def outBuf (x0 : Vec F S16x4096 .f32) (x1 : Vec F S512x4096 .i32) (x2 : Vec F S1x512 .f32) (x3 : Vec F S1x512 .f32) :
    Vec F S16x512 .f32 :=
  View.canon [⟨rO, k0_pay1 (View.ld x0 rX) (View.ld x1 rW) (View.ld x2 rS) (View.ld x3 rS)⟩]

/-- The one store covers the output buffer. -/
theorem cover_out (p0 : Vec F S16x512 .f32) (y : S16x512.Idx) :
    ∃ pc ∈ ([⟨rO, p0⟩] : List (View.Piece (Elt F) S16x512 .f32)), y ∈ pc.1.set :=
  View.cover_of_tiled [⟨rO, p0⟩] S16x512.size (by rfl) y

set_option maxHeartbeats 1000000 in
/-- The body on whole staging memrefs, the four inputs' at contents `x0 … x3` and the output's at anything, runs to
    the continuation holding the inputs' as they were and the output's at `outBuf x0 x1 x2 x3`. -/
theorem sound_kernel (c : Dev nD) (E : Set ℕ) (i : grid0.Coords)
    (arg1 : Memref sig .tc .vmem S16x4096 .f32) (harg1 : arg1.IsWhole)
    (arg2 : Memref sig .tc .vmem S512x4096 .i32) (harg2 : arg2.IsWhole)
    (arg3 : Memref sig .tc .vmem S1x512 .f32) (harg3 : arg3.IsWhole)
    (arg4 : Memref sig .tc .vmem S1x512 .f32) (harg4 : arg4.IsWhole)
    (arg5 : Memref sig .tc .vmem S16x512 .f32) (harg5 : arg5.IsWhole)
    (x0 : Vec F S16x4096 .f32) (x1 : Vec F S512x4096 .i32) (x2 : Vec F S1x512 .f32) (x3 : Vec F S1x512 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outBuf x0 x1 x2 x3)) -∗ K ⟨⟩))
      ⊢ wp frame (wpE (defs₀ (F := F)) Variants.none c none) E
          (cc0__kernel i arg1 harg1 arg2 harg2 arg3 harg3 arg4 harg4 arg5 harg5) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Cert.KernelIdeal.Body

end
-- ==== Proof.PayloadIdeal.lean ====
/-
  The body's arithmetic at the exact instance, read at one entry.

  With floats extended reals and every change of float format the identity, the 16 × 512 value the body stores is, at
  row `p` and column `q`,

      (∑ₖ x (p, k) · w (q, k)) · scale (0, q) + bias (0, q),

  where `w (q, k)` is the integer held in row `q` of the weight tile read as a real number: the matrix product
  contracts the second axis of both operands, so output column `q` reads row `q` of the tile and no other row, and the
  two 1 × 512 rows are broadcast down the sixteen rows.
-/
import proofs.«166543_j19662360281096_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

local notation "D" => dot_S16x4096_S512x4096_S16x512_1_1_0_0_n_n

/-! ## The matrix product's operand indices -/

theorem lhs_row (i : S16x512.Idx) (r : (D).contr.Idx) : ((D).lhsIdx i r 0).val = (i 0).val := by
  unfold DotDims.lhsIdx
  rw [dif_neg (show ¬(0 : Fin S16x4096.rank) ∈ (D).lhsBatch by decide),
    dif_pos (show (0 : Fin S16x4096.rank) ∈ (D).lhsNonContracting by decide)]
  rfl

theorem lhs_col (i : S16x512.Idx) (r : (D).contr.Idx) : ((D).lhsIdx i r 1).val = (r ⟨0, by decide⟩).val :=
  (D).lhsIdx_val_of_single rfl i r

theorem rhs_row (i : S16x512.Idx) (r : (D).contr.Idx) : ((D).rhsIdx i r 0).val = (i 1).val := by
  unfold DotDims.rhsIdx
  rw [dif_neg (show ¬(0 : Fin S512x4096.rank) ∈ (D).rhsBatch by decide),
    dif_pos (show (0 : Fin S512x4096.rank) ∈ (D).rhsNonContracting by decide)]
  rfl

theorem rhs_col (i : S16x512.Idx) (r : (D).contr.Idx) : ((D).rhsIdx i r 1).val = (r ⟨0, by decide⟩).val :=
  (D).rhsIdx_val_of_single rfl i r

/-- The product of a 16 × 4096 left operand with a 512 × 4096 right operand, contracted on the second axis of both,
    into the zero accumulator: at `(p, q)` the sum over `k` of `l (p, k) · r (q, k)`. -/
theorem matmul_rows {φ₁ φ₂ : FTy} (l : FVec Ideal S16x4096 φ₁) (r : FVec Ideal S512x4096 φ₂) (p : Fin 16) (q : Fin 512) :
    FloatOps.matmul D none l r (constant (F := Ideal) S16x512 .f32 0x00000000#32) (ix2 p q)
      = ∑ k : Fin 4096, l (ix2 p k) * r (ix2 q k) := by
  rw [Ideal.matmul_constant_zero_apply, ← Equiv.sum_comp (contrEquiv1 D 4096 rfl rfl).symm]
  refine Finset.sum_congr rfl fun k _ => ?_
  have hk := contrEquiv1_symm_val D 4096 rfl rfl k
  have el : (D).lhsIdx (ix2 p q) ((contrEquiv1 D 4096 rfl rfl).symm k) = ix2 p k := funext fun a => Fin.ext (by
    match a with
    | ⟨0, _⟩ => exact lhs_row _ _
    | ⟨1, _⟩ => exact (lhs_col _ _).trans hk)
  have er : (D).rhsIdx (ix2 p q) ((contrEquiv1 D 4096 rfl rfl).symm k) = ix2 q k := funext fun a => Fin.ext (by
    match a with
    | ⟨0, _⟩ => exact rhs_row _ _
    | ⟨1, _⟩ => exact (rhs_col _ _).trans hk)
  rw [el, er]

/-- A 1 × 512 row, cast to its own shape and broadcast down sixteen rows, read at `(p, q)`: the row at `q`. -/
theorem row_apply (v : Vec Ideal S1x512 .f32) (p : Fin 16) (q : Fin 512) :
    broadcastTo S16x512 (shapeCast S1x512 v Facts₀.shapeCasts_S1x512_S1x512) Facts₀.broadcasts_S1x512_S16x512 (ix2 p q)
      = v (ix2 (0 : Fin 1) q) := by
  rw [shapeCast_self]
  exact broadcastTo_1b_ab_apply v _ p q

/-- The integer a weight word holds, as an extended real. -/
abbrev wt (b : BitVec 32) : EReal := ((b.toInt : ℝ) : EReal)

/-- The body's arithmetic at `(p, q)`. -/
theorem pay_apply (x0 : Vec Ideal S16x4096 .f32) (x1 : Vec Ideal S512x4096 .i32) (x2 x3 : Vec Ideal S1x512 .f32)
    (p : Fin 16) (q : Fin 512) :
    k0_pay1 (F := Ideal) x0 x1 x2 x3 (ix2 p q)
      = (∑ k : Fin 4096, x0 (ix2 p k) * wt (x1 (ix2 q k))) * x2 (ix2 (0 : Fin 1) q) + x3 (ix2 (0 : Fin 1) q) := by
  unfold k0_pay1
  simp only [matmul]
  rw [addf_apply, mulf_apply, row_apply, row_apply, matmul_rows]
  rfl

end Cert.KernelIdeal.Payload

end
-- ==== Proof.ValueSpec.lean ====
/-
  The result as one function of the arrays, and the body's value on the columns inside the array.

  One whole-array function says what the result array ends holding: at row `p` and column `o`,

      (∑ₖ x (p, k) · w (o, k)) · scale (0, o) + bias (0, o),

  over the arrays as the region finds them (`x` and `w` the launched activations and weights, `scale` and `bias` the
  row-shaped copies the host made of the scale column and the bias vector).  Grid point `t` stages rows
  512 t … 512 t + 511 of `w` and columns 512 t … 512 t + 511 of the two rows; at the last point only 256 of them lie
  inside the arrays, and the rest of each staging buffer holds contents nothing names.  Output column `q` of the
  body's value reads row `q` of the staged weights and entry `q` of the staged rows and nothing else of them, so on the
  columns inside the array the value does not depend on those contents: it is the whole-array function's block.
-/
import proofs.«166543_j19662360281096_2_alg».proof.Proof.BodyIdeal
import proofs.«166543_j19662360281096_2_alg».proof.Proof.PayloadIdeal
import Idealize.ShloMosaic.Lib.Pipeline.Value

set_option maxRecDepth 16384

noncomputable section

open scoped BigOperators

namespace Cert.KernelIdeal.Body

open Cert.KernelIdeal Cert.KernelIdeal.Gen Cert.KernelIdeal.Payload
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The output buffer after the body is the body's arithmetic of the four input buffers' contents: every access is a
    whole buffer. -/
theorem outBuf_eq (x0 : Vec Ideal S16x4096 .f32) (x1 : Vec Ideal S512x4096 .i32) (x2 x3 : Vec Ideal S1x512 .f32) :
    outBuf x0 x1 x2 x3 = k0_pay1 x0 x1 x2 x3 := by
  unfold outBuf
  rw [View.canon_unit_zero hz]
  simp only [View.ld_unit_zero (S := S16x4096) hz, View.ld_unit_zero (S := S512x4096) hz, View.ld_unit_zero (S := S1x512) hz]

/-! ## The result as one function of the arrays -/

/-- `(∑ₖ x (p, k) · w (o, k)) · scale (0, o) + bias (0, o)` at `(p, o)`. -/
def linear (x : S16x4096.Idx → EReal) (w : S11008x4096.Idx → BitVec 32) (s b : S1x11008.Idx → EReal) :
    S16x11008.Idx → EReal := fun i =>
  (∑ k : Fin 4096, x (ix2 (i 0) k) * wt (w (ix2 (i 1) k))) * s (ix2 (0 : Fin 1) (i 1)) + b (ix2 (0 : Fin 1) (i 1))

/-- What the result array ends holding, from the arrays as the region finds them. -/
def Gout (c : Dev nD) : S16x11008.Idx → EReal :=
  linear (V m c main_arg0) (V m c main_arg1) (V m c main_v0) (V m c main_v1)

/-! ## The index maps and the cut sizes, over the grid's 22 points -/

theorem idx0 : ∀ t : Fin cfg0.N, win0_0.index t (0 : Fin 2) = 0 ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0
    ∧ win0_1.xsize (grid0.coords t) (1 : Fin 2) = 4096
    ∧ win0_1.xsize (grid0.coords t) (0 : Fin 2) = win0_4.xsize (grid0.coords t) (1 : Fin 2) :=
  (by decide +kernel : ∀ t : Fin grid0.N, _)

theorem idx2 : ∀ t : Fin cfg0.N, win0_2.index t (0 : Fin 2) = 0 ∧ win0_2.index t (1 : Fin 2) = t.val
    ∧ win0_2.xsize (grid0.coords t) (0 : Fin 2) = 1
    ∧ win0_2.xsize (grid0.coords t) (1 : Fin 2) = win0_4.xsize (grid0.coords t) (1 : Fin 2) :=
  (by decide +kernel : ∀ t : Fin grid0.N, _)

theorem idx3 : ∀ t : Fin cfg0.N, win0_3.index t (0 : Fin 2) = 0 ∧ win0_3.index t (1 : Fin 2) = t.val
    ∧ win0_3.xsize (grid0.coords t) (0 : Fin 2) = 1
    ∧ win0_3.xsize (grid0.coords t) (1 : Fin 2) = win0_4.xsize (grid0.coords t) (1 : Fin 2) :=
  (by decide +kernel : ∀ t : Fin grid0.N, _)

theorem idx4 : ∀ t : Fin cfg0.N, win0_4.index t (0 : Fin 2) = 0 ∧ win0_4.index t (1 : Fin 2) = t.val
    ∧ win0_4.xsize (grid0.coords t) (0 : Fin 2) = 16
    ∧ win0_4.xsize (grid0.coords t) (1 : Fin 2) = min 512 (11008 - 512 * t.val) :=
  (by decide +kernel : ∀ t : Fin grid0.N, _)

/-! ## A filled buffer read inside the moved part -/

/-- A buffer filled with `g` on the part a transfer moves, read at an index all of whose coordinates lie in that part,
    holds `g` there. -/
theorem fill_moved {G : Pipeline.Grid} (w : Window sig G) {α : Type} (i : G.Coords) (d : w.block.Idx → α)
    (g : (w.xblock i).Idx → α) (x : w.block.Idx) (hm : ∀ a, (x a).val < w.xsize i a) :
    w.fill i d g x = g fun a => ⟨(x a).val, hm a⟩ := by
  unfold Window.fill
  rw [dif_pos ((w.moved_iff i x).mpr hm)]

/-! ## The body's value on the columns inside the array -/

set_option maxHeartbeats 1000000 in
/-- On the part written back, what the body leaves in the result's buffer is the block of `Gout`, whatever the
    clipped inputs' buffers hold past the arrays' end. -/
theorem cut_out (c : Dev nD) (t : Fin cfg0.N) (d1 : S512x4096.Idx → BitVec 32) (d2 d3 : S1x512.Idx → EReal) :
    win0_4.cut (grid0.coords t)
        (outBuf (F := Ideal) (iblk m c 0 t) (win0_1.fill (grid0.coords t) d1 (iblk m c 1 t))
          (win0_2.fill (grid0.coords t) d2 (iblk m c 2 t)) (win0_3.fill (grid0.coords t) d3 (iblk m c 3 t)))
      = (win0_4.blk t).view.read (Elt Ideal) (Gout m c) := by
  obtain ⟨a0, a1⟩ := idx0 t
  obtain ⟨b0, b1, b2, b3⟩ := idx1 t
  obtain ⟨c0, c1, c2, c3⟩ := idx2 t
  obtain ⟨e0, e1, e2, e3⟩ := idx3 t
  obtain ⟨f0, f1, f2, f3⟩ := idx4 t
  funext j
  have hj0' : (j 0).val < win0_4.xsize (grid0.coords t) (0 : Fin 2) := (j 0).isLt
  have hj1' : (j 1).val < win0_4.xsize (grid0.coords t) (1 : Fin 2) := (j 1).isLt
  have hj0 : (j 0).val < 16 := by omega
  have hj1 : (j 1).val < 512 := by omega
  show outBuf (F := Ideal) _ _ _ _ (win0_4.xinj (grid0.coords t) j) = Gout m c ((win0_4.blk t).view.emb j)
  have ex : win0_4.xinj (grid0.coords t) j = ix2 (⟨(j 0).val, hj0⟩ : Fin 16) (⟨(j 1).val, hj1⟩ : Fin 512) :=
    funext fun a => by match a with | ⟨0, _⟩ => rfl | ⟨1, _⟩ => rfl
  rw [outBuf_eq, ex, pay_apply]
  -- the array coordinates of the block's entry `j`: row `j 0`, column `512 t + j 1`
  have eo0 : (((win0_4.blk t).view.emb j) 0).val = (j 0).val := by
    show win0_4.index t (0 : Fin 2) * 16 + 1 * (j 0).val = _
    rw [f0]; omega
  have eo1 : (((win0_4.blk t).view.emb j) 1).val = 512 * t.val + (j 1).val := by
    show win0_4.index t (1 : Fin 2) * 512 + 1 * (j 1).val = _
    rw [f1]; omega
  -- the activations' block is the whole array
  have hx : ∀ k : Fin 4096, iblk m c 0 t (ix2 (⟨(j 0).val, hj0⟩ : Fin 16) k)
      = V m c main_arg0 (ix2 (((win0_4.blk t).view.emb j) 0) k) := fun k => by
    show V m c main_arg0 (((cfg0.win 0).blk t).view.emb (ix2 (⟨(j 0).val, hj0⟩ : Fin 16) k)) = _
    refine congrArg _ (funext fun a => Fin.ext ?_)
    match a with
    | ⟨0, _⟩ =>
      show win0_0.index t (0 : Fin 2) * 16 + 1 * (j 0).val = (((win0_4.blk t).view.emb j) 0).val
      rw [eo0, a0]; omega
    | ⟨1, _⟩ =>
      show win0_0.index t (1 : Fin 2) * 4096 + 1 * k.val = k.val
      rw [a1]; omega
  -- row `j 1` of the staged weights is inside the array: the fetch landed row `512 t + j 1` of the weights there
  have hw : ∀ k : Fin 4096, win0_1.fill (grid0.coords t) d1 (iblk m c 1 t) (ix2 (⟨(j 1).val, hj1⟩ : Fin 512) k)
      = V m c main_arg1 (ix2 (((win0_4.blk t).view.emb j) 1) k) := fun k => by
    have h0 : (j 1).val < win0_1.xsize (grid0.coords t) (0 : Fin 2) := by rw [b3]; exact hj1'
    have h1 : k.val < win0_1.xsize (grid0.coords t) (1 : Fin 2) := by rw [b2]; exact k.isLt
    have hm : ∀ a, ((ix2 (⟨(j 1).val, hj1⟩ : Fin 512) k : S512x4096.Idx) a).val < win0_1.xsize (grid0.coords t) a :=
      fun a => by match a with | ⟨0, _⟩ => exact h0 | ⟨1, _⟩ => exact h1
    rw [fill_moved win0_1 (grid0.coords t) d1 (iblk m c 1 t) _ hm]
    show V m c main_arg1 (((cfg0.win 1).blk t).view.emb _) = _
    refine congrArg _ (funext fun a => Fin.ext ?_)
    match a with
    | ⟨0, _⟩ =>
      show win0_1.index t (0 : Fin 2) * 512 + 1 * (j 1).val = (((win0_4.blk t).view.emb j) 1).val
      rw [eo1, b0]; omega
    | ⟨1, _⟩ =>
      show win0_1.index t (1 : Fin 2) * 4096 + 1 * k.val = k.val
      rw [b1]; omega
  -- entry `j 1` of the staged scale row and of the staged bias row likewise
  have hs : win0_2.fill (grid0.coords t) d2 (iblk m c 2 t) (ix2 (0 : Fin 1) (⟨(j 1).val, hj1⟩ : Fin 512))
      = V m c main_v0 (ix2 (0 : Fin 1) (((win0_4.blk t).view.emb j) 1)) := by
    have h0 : (0 : Nat) < win0_2.xsize (grid0.coords t) (0 : Fin 2) := by rw [c2]; exact Nat.one_pos
    have h1 : (j 1).val < win0_2.xsize (grid0.coords t) (1 : Fin 2) := by rw [c3]; exact hj1'
    have hm : ∀ a, ((ix2 (0 : Fin 1) (⟨(j 1).val, hj1⟩ : Fin 512) : S1x512.Idx) a).val < win0_2.xsize (grid0.coords t) a :=
      fun a => by match a with | ⟨0, _⟩ => exact h0 | ⟨1, _⟩ => exact h1
    rw [fill_moved win0_2 (grid0.coords t) d2 (iblk m c 2 t) _ hm]
    show V m c main_v0 (((cfg0.win 2).blk t).view.emb _) = _
    refine congrArg _ (funext fun a => Fin.ext ?_)
    match a with
    | ⟨0, _⟩ =>
      show win0_2.index t (0 : Fin 2) * 1 + 1 * 0 = 0
      rw [c0]
    | ⟨1, _⟩ =>
      show win0_2.index t (1 : Fin 2) * 512 + 1 * (j 1).val = (((win0_4.blk t).view.emb j) 1).val
      rw [eo1, c1]; omega
  have hb : win0_3.fill (grid0.coords t) d3 (iblk m c 3 t) (ix2 (0 : Fin 1) (⟨(j 1).val, hj1⟩ : Fin 512))
      = V m c main_v1 (ix2 (0 : Fin 1) (((win0_4.blk t).view.emb j) 1)) := by
    have h0 : (0 : Nat) < win0_3.xsize (grid0.coords t) (0 : Fin 2) := by rw [e2]; exact Nat.one_pos
    have h1 : (j 1).val < win0_3.xsize (grid0.coords t) (1 : Fin 2) := by rw [e3]; exact hj1'
    have hm : ∀ a, ((ix2 (0 : Fin 1) (⟨(j 1).val, hj1⟩ : Fin 512) : S1x512.Idx) a).val < win0_3.xsize (grid0.coords t) a :=
      fun a => by match a with | ⟨0, _⟩ => exact h0 | ⟨1, _⟩ => exact h1
    rw [fill_moved win0_3 (grid0.coords t) d3 (iblk m c 3 t) _ hm]
    show V m c main_v1 (((cfg0.win 3).blk t).view.emb _) = _
    refine congrArg _ (funext fun a => Fin.ext ?_)
    match a with
    | ⟨0, _⟩ =>
      show win0_3.index t (0 : Fin 2) * 1 + 1 * 0 = 0
      rw [e0]
    | ⟨1, _⟩ =>
      show win0_3.index t (1 : Fin 2) * 512 + 1 * (j 1).val = (((win0_4.blk t).view.emb j) 1).val
      rw [eo1, e1]; omega
  rw [hs, hb, Finset.sum_congr rfl fun k _ => by rw [hx k, hw k]]
  rfl

end Cert.KernelIdeal.Body

end
-- ==== Proof.ValueIdeal.lean ====
/-
  The idealized kernel's run with its result named.

  The proof data names what each staging buffer holds after the body: the activations' buffer its block (the whole
  array, resident), each clipped input's buffer its block on the part inside the array, and the result's buffer the
  block of the whole-array function `Gout` on the part inside the array; past the arrays' end nothing is stated (the
  filler is zero, and no obligation reads it).  The body meets that at every point (`cut_out`), every grid point
  writes its block back, and the 22 blocks — 21 of 512 columns and a last one of 256 — cover the 11008 columns, so the
  result array ends holding `Gout`.
-/
import proofs.«166543_j19662360281096_2_alg».proof.Proof.ValueSpec

set_option maxRecDepth 16384

noncomputable section

open scoped BigOperators

namespace Cert.KernelIdeal.Body

open Cert.KernelIdeal Cert.KernelIdeal.Gen Cert.KernelIdeal.Payload
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The proof data of the one pipeline on core `c`: the arrays as the region finds them; after the body at point
    `t` the activations' buffer at its block, each clipped input's buffer at its block filled out with zeros past the
    array's end, the result's buffer at the block of `Gout` filled out likewise; the class's invariant; nothing
    owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : BitVec 32)) (iblk m c 1 t)
    | ⟨2, _⟩ => win0_2.fill (grid0.coords t) (fun _ => (0 : EReal)) (iblk m c 2 t)
    | ⟨3, _⟩ => win0_3.fill (grid0.coords t) (fun _ => (0 : EReal)) (iblk m c 3 t)
    | ⟨4, _⟩ => win0_4.fill (grid0.coords t) (fun _ => (0 : EReal)) ((win0_4.blk t).view.read (Elt Ideal) (Gout m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => (0 : BitVec 32)) (iblk m c 1 t) := by dsimp only [dats]
theorem after0_2 (c : Dev nD) (t : Fin cfg0.N) :
    (dats m 0 c).after 2 t = win0_2.fill (grid0.coords t) (fun _ => (0 : EReal)) (iblk m c 2 t) := by dsimp only [dats]
theorem after0_3 (c : Dev nD) (t : Fin cfg0.N) :
    (dats m 0 c).after 3 t = win0_3.fill (grid0.coords t) (fun _ => (0 : EReal)) (iblk m c 3 t) := by dsimp only [dats]
theorem after0_4 (c : Dev nD) (t : Fin cfg0.N) :
    (dats m 0 c).after 4 t
      = win0_4.fill (grid0.coords t) (fun _ => (0 : EReal)) ((win0_4.blk t).view.read (Elt Ideal) (Gout m c)) := by
  dsimp only [dats]

/-! ## What the body finds -/

/-- The activations' buffer holds the whole array at every point. -/
theorem before0_0 (c : Dev nD) (t : Fin cfg0.N) (d) : (dats m 0 c).before 0 t d = iblk m c 0 t :=
  before0_0_of m (dats m 0 c) (A_eq m c 0) (after0_0 m c) t d

/-- Each clipped input is fetched at every point: its buffer holds its block on the part inside the array, and
    `d` elsewhere. -/
theorem before0_1 (c : Dev nD) (t : Fin cfg0.N) (d) :
    (dats m 0 c).before 1 t d = win0_1.fill (grid0.coords t) d (iblk m c 1 t) := by
  unfold Dat.before; rw [if_pos (fetch0_1 t)]; rfl
theorem before0_2 (c : Dev nD) (t : Fin cfg0.N) (d) :
    (dats m 0 c).before 2 t d = win0_2.fill (grid0.coords t) d (iblk m c 2 t) := by
  unfold Dat.before; rw [if_pos (fetch0_2 t)]; rfl
theorem before0_3 (c : Dev nD) (t : Fin cfg0.N) (d) :
    (dats m 0 c).before 3 t d = win0_3.fill (grid0.coords t) d (iblk m c 3 t) := by
  unfold Dat.before; rw [if_pos (fetch0_3 t)]; rfl

/-! ## The body obligation -/

/-- At every point the body, called on the buffers as the fetches left them, leaves the inputs' as they were and
    the result's at the block of `Gout` on the part written back: all that the obligation of a clipped window
    states. -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  simp only [before0_0 m c t, before0_1 m c t, before0_2 m c t, before0_3 m c t]
  change _ ⊢ wp frame (wpE (defs₀ (F := Ideal)) Variants.none c none) Set.univ (bodyAt0 t) _
  unfold bodyAt0
  iintro ⟨HΦ, Ho, ⟨%d0, H0⟩, ⟨%d1, H1⟩, ⟨%d2, H2⟩, ⟨%d3, H3⟩, ⟨%d4, H4⟩⟩
  have e1 : (win0 1).fill (grid0.coords t) d1 ((win0 1).cut (grid0.coords t) ((dats m 0 c).after 1 t))
      = win0_1.fill (grid0.coords t) d1 (iblk m c 1 t) := by
    rw [after0_1]; exact congrArg _ (win0_1.cut_fill _ _ _)
  have e2 : (win0 2).fill (grid0.coords t) d2 ((win0 2).cut (grid0.coords t) ((dats m 0 c).after 2 t))
      = win0_2.fill (grid0.coords t) d2 (iblk m c 2 t) := by
    rw [after0_2]; exact congrArg _ (win0_2.cut_fill _ _ _)
  have e3 : (win0 3).fill (grid0.coords t) d3 ((win0 3).cut (grid0.coords t) ((dats m 0 c).after 3 t))
      = win0_3.fill (grid0.coords t) d3 (iblk m c 3 t) := by
    rw [after0_3]; exact congrArg _ (win0_3.cut_fill _ _ _)
  have hcut : (win0 4).cut (grid0.coords t) ((dats m 0 c).after 4 t)
      = (win0_4.blk t).view.read (Elt Ideal) (Gout m c) := by
    rw [after0_4]; exact win0_4.cut_fill _ _ _
  have e4 : (win0 4).fill (grid0.coords t)
        (outBuf (F := Ideal) (iblk m c 0 t) (win0_1.fill (grid0.coords t) d1 (iblk m c 1 t))
          (win0_2.fill (grid0.coords t) d2 (iblk m c 2 t)) (win0_3.fill (grid0.coords t) d3 (iblk m c 3 t)))
        ((win0 4).cut (grid0.coords t) ((dats m 0 c).after 4 t))
      = outBuf (F := Ideal) (iblk m c 0 t) (win0_1.fill (grid0.coords t) d1 (iblk m c 1 t))
          (win0_2.fill (grid0.coords t) d2 (iblk m c 2 t)) (win0_3.fill (grid0.coords t) d3 (iblk m c 3 t)) := by
    rw [hcut, ← cut_out m c t d1 d2 d3]; exact win0_4.fill_cut _ _
  iapply (sound_kernel c Set.univ (grid0.coords t) _ _ _ _ _ _ _ _ _ _ (iblk m c 0 t)
    (win0_1.fill (grid0.coords t) d1 (iblk m c 1 t)) (win0_2.fill (grid0.coords t) d2 (iblk m c 2 t))
    (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · rw [after0_0]; iexact H0
  isplitl [H1]
  · iexists d1; rw [e1]; iexact H1
  isplitl [H2]
  · iexists d2; rw [e2]; iexact H2
  isplitl [H3]
  · iexists d3; rw [e3]; iexact H3
  · iexists (outBuf (F := Ideal) (iblk m c 0 t) (win0_1.fill (grid0.coords t) d1 (iblk m c 1 t))
      (win0_2.fill (grid0.coords t) d2 (iblk m c 2 t)) (win0_3.fill (grid0.coords t) d3 (iblk m c 3 t)))
    rw [e4]; iexact H4

/-! ## The run -/

set_option backward.isDefEq.respectTransparency.types false in
/-- Every weakly fair execution of @main terminates, nothing faulting, every staged array at what the library
    computes from the proof data and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-! ## The result array -/

/-- What point `t` writes back is block `t` of `Gout`. -/
theorem flushed_eq (c : Dev nD) (t : Fin cfg0.N) :
    (dats m 0 c).flushed 4 t = ((cfg0.win 4).blk t).view.read (Elt Ideal) (Gout m c) := by
  show (cfg0.win 4).cut (grid0.coords t) ((dats m 0 c).after 4 t) = _
  rw [after0_4]; exact win0_4.cut_fill _ _ _

/-- An index of the result array is in point `t`'s block iff each coordinate is in the block's range on its axis,
    cut at the array's end. -/
theorem mem_blk (t : Fin cfg0.N) (i : S16x11008.Idx) :
    i ∈ ((cfg0.win 4).blk t).view.set ↔ ∀ a : Fin 2, win0_4.index t a * S16x512.size a ≤ (i a).val
      ∧ (i a).val < win0_4.index t a * S16x512.size a + win0_4.xsize (grid0.coords t) a := by
  show i ∈ ((View.whole main_v2).slice (win0_4.rect t)).set ↔ _
  rw [View.set_slice_whole, Rect.mem_set_unit]
  exact Iff.rfl

/-- Column `o` lies in the block of point `o / 512`: the 22 blocks cover the array. -/
theorem cover (i : S16x11008.Idx) :
    ∃ t : Fin cfg0.N, (cfg0.win 4).flush t = true ∧ i ∈ ((cfg0.win 4).blk t).view.set := by
  have h0 : (i 0).val < 16 := (i 0).isLt
  have h1 : (i 1).val < 11008 := (i 1).isLt
  have hN : (i 1).val / 512 < cfg0.N := by rw [show cfg0.N = 22 from N_0]; omega
  refine ⟨⟨(i 1).val / 512, hN⟩, flush0_4 _, ?_⟩
  rw [mem_blk]
  obtain ⟨f0, f1, f2, f3⟩ := idx4 ⟨(i 1).val / 512, hN⟩
  have ht : (⟨(i 1).val / 512, hN⟩ : Fin cfg0.N).val = (i 1).val / 512 := rfl
  intro a
  match a with
  | ⟨0, _⟩ =>
    show win0_4.index _ (0 : Fin 2) * 16 ≤ (i 0).val ∧ (i 0).val < win0_4.index _ (0 : Fin 2) * 16 + win0_4.xsize _ (0 : Fin 2)
    rw [f0, f2]; omega
  | ⟨1, _⟩ =>
    show win0_4.index _ (1 : Fin 2) * 512 ≤ (i 1).val ∧ (i 1).val < win0_4.index _ (1 : Fin 2) * 512 + win0_4.xsize _ (1 : Fin 2)
    rw [f1, f3, ht]; omega

/-- The result array after the run is `Gout`. -/
theorem final (c : Dev nD) : (dats m 0 c).arrAt 4 cfg0.N = Gout m c :=
  (dats m 0 c).arrAt_eq_of_cover 4 (Gout m c) (fun t _ => flushed_eq m c t) cover

/-- The run, read: the result array ends at `Gout` and the four arguments as they began. -/
theorem run : θ_run defs (onTc (τ := τ) (main (F := Ideal))) ⟨m, fun _ => 0, ρ⟩ fun r => ∀ c : Dev nD,
      r.2.mem ((c.tc : Thread nD τ).loc main_v2) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

/-- The frame of the idealized kernel: the run with the result forgotten. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.KernelIdeal.Body

end
-- ==== Proof.HostRows.lean ====
/-
  The rows the kernel stages for the scales and the biases.

  Before the region the host reshapes the scale column (11008 × 1) and the bias vector (11008) into 1 × 11008 rows.
  A reshape keeps the row-major order, so entry `(0, o)` of either row is entry `o` of the column, or of the vector.
  So the function the result array ends holding reads the launched arguments alone.
-/
import proofs.«166543_j19662360281096_2_alg».proof.Proof.ValueSpec
import Idealize.ShloMosaic.Lib.StableHlo.Run

set_option maxRecDepth 16384

noncomputable section

open scoped BigOperators

namespace Cert.KernelIdeal.Body

open Cert.KernelIdeal Cert.KernelIdeal.Gen Cert.KernelIdeal.Payload
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- The scale row as the region finds it: the scale column, reshaped. -/
theorem V_scale (c : Dev nD) : (V m c main_v0 : S1x11008.Idx → EReal)
    = shapeCast S1x11008 (m ((c : Thread nD τ).loc main_arg2)) Facts₀.shapeCasts_S11008x1_S1x11008 := by
  dsimp only [Gen.V, Gen.hostOps0]; after_results; rfl

/-- The bias row as the region finds it: the bias vector, reshaped. -/
theorem V_bias (c : Dev nD) : (V m c main_v1 : S1x11008.Idx → EReal)
    = shapeCast S1x11008 (m ((c : Thread nD τ).loc main_arg3)) Facts₀.shapeCasts_S11008_S1x11008 := by
  dsimp only [Gen.V, Gen.hostOps0]; after_results; rfl

theorem V_scale_apply (c : Dev nD) (o : Fin 11008) :
    V m c main_v0 (ix2 (0 : Fin 1) o) = m ((c : Thread nD τ).loc main_arg2) (ix2 o (0 : Fin 1)) := by
  rw [V_scale]
  exact shapeCast_apply _ _ (ix2 (0 : Fin 1) o) (ix2 o (0 : Fin 1)) (by
    rw [Shape.rowMajor_val_two, Shape.rowMajor_val_two]
    show o.val * 1 + 0 = 0 * 11008 + o.val
    omega)

theorem V_bias_apply (c : Dev nD) (o : Fin 11008) :
    V m c main_v1 (ix2 (0 : Fin 1) o) = m ((c : Thread nD τ).loc main_arg3) (ix1 o) := by
  rw [V_bias]
  exact shapeCast_apply _ _ (ix2 (0 : Fin 1) o) (ix1 o) (by
    rw [Shape.rowMajor_val_one, Shape.rowMajor_val_two]
    show o.val = 0 * 11008 + o.val
    omega)

/-- `linear` reads its two rows at `(0, o)` only. -/
theorem linear_congr (x : S16x4096.Idx → EReal) (w : S11008x4096.Idx → BitVec 32) (s s' b b' : S1x11008.Idx → EReal)
    (hs : ∀ o : Fin 11008, s (ix2 (0 : Fin 1) o) = s' (ix2 (0 : Fin 1) o))
    (hb : ∀ o : Fin 11008, b (ix2 (0 : Fin 1) o) = b' (ix2 (0 : Fin 1) o)) :
    linear x w s b = linear x w s' b' := by
  funext i; unfold linear; rw [hs (i 1), hb (i 1)]

/-- The result, from the launched arguments: at `(p, o)`,
    `(∑ₖ x (p, k) · w (o, k)) · scale (o, 0) + bias (o)`. -/
theorem Gout_eq (c : Dev nD) : Gout m c
    = linear (m ((c : Thread nD τ).loc main_arg0)) (m ((c : Thread nD τ).loc main_arg1))
        (fun i' => m ((c : Thread nD τ).loc main_arg2) (ix2 (i' 1) (0 : Fin 1)))
        (fun i' => m ((c : Thread nD τ).loc main_arg3) (ix1 (i' 1))) := by
  unfold Gout
  rw [V_main_arg0, V_main_arg1]
  exact linear_congr _ _ _ _ _ _ (fun o => V_scale_apply m c o) (fun o => V_bias_apply m c o)

end Cert.KernelIdeal.Body

end
-- ==== Proof.Finite.lean ====
/-
  Finite inputs are real numbers.

  The precondition says of each float argument that every entry's absolute value is below +∞.  On the extended
  reals that leaves exactly the real numbers: `|−∞| = |+∞| = +∞` is not below `+∞`.
-/
import proofs.«166543_j19662360281096_2_alg».proof.Pre_finite_inputs
import proofs.«166543_j19662360281096_2_alg».proof.Proof.Gen.Pre_finite_inputs
import Idealize.ShloMosaic.Lib.ReduceAll
import Idealize.ShloMosaic.Lib.ValueIdx
import Idealize.ShloMosaic.Lib.Affine
import Idealize.ShloMosaic.PureOps.Ideal

noncomputable section

namespace Cert.Finite

open Idealize.ShloMosaic Cert.Pre_finite_inputs

instance : Subsingleton S_.Idx := ⟨fun a b => funext fun d => d.elim0⟩

/-- The float pattern of `+∞` denotes `+∞`. -/
theorem top_bits : Ideal.ofBits .f32 0x7F800000#32 = (⊤ : EReal) := by simp [Ideal.ofBits, Ideal.ieee]

/-- An extended real whose absolute value is below `+∞` is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- Under the precondition the activations, the scales and the biases are real numbers, entry by entry. -/
theorem real_of_pre (x0 : FVec Ideal S16x4096 .f32) (x1 : IVec S11008x4096 32) (x2 : FVec Ideal S11008x1 .f32)
    (x3 : FVec Ideal S11008 .f32) (h : fn (F := Ideal) x0 x1 x2 x3 = fun _ => 1#1) :
    (∀ i, ∃ r : ℝ, x0 i = (r : EReal)) ∧ (∀ i, ∃ r : ℝ, x2 i = (r : EReal)) ∧ (∀ i, ∃ r : ℝ, x3 i = (r : EReal)) := by
  have h' := congrFun h ValueIdx.ix0
  dsimp only [fn] at h'
  obtain ⟨h12, h3⟩ := IntOp.andi_eq_one.1 h'
  obtain ⟨h1, h2⟩ := IntOp.andi_eq_one.1 h12
  refine ⟨fun i => ?_, fun i => ?_, fun i => ?_⟩
  · have e := Host.reduce_andi_all _ _ _ _ _ h1 i
    have e' : Ideal.cmp .olt (max (x0 i) (-(x0 i))) (Ideal.ofBits .f32 0x7F800000#32) = 1#1 := e
    rw [top_bits] at e'
    exact real_of_abs_lt_top _ e'
  · have e := Host.reduce_andi_all _ _ _ _ _ h2 i
    have e' : Ideal.cmp .olt (max (x2 i) (-(x2 i))) (Ideal.ofBits .f32 0x7F800000#32) = 1#1 := e
    rw [top_bits] at e'
    exact real_of_abs_lt_top _ e'
  · have e := Host.reduce_andi_all _ _ _ _ _ h3 i
    have e' : Ideal.cmp .olt (max (x3 i) (-(x3 i))) (Ideal.ofBits .f32 0x7F800000#32) = 1#1 := e
    rw [top_bits] at e'
    exact real_of_abs_lt_top _ e'

end Cert.Finite

end
-- ==== Proof.Bridge.lean ====
/-
  The reference computes the same function.

  The reference scales the weights first and then contracts: at `(p, o)` it is
  `∑ₖ x (p, k) · (w (o, k) · scale (o, 0)) + bias (o)`.  The kernel contracts first and scales the 16 × 512 result:
  `(∑ₖ x (p, k) · w (o, k)) · scale (o, 0) + bias (o)`.  The two agree because a factor moves through a finite sum,
  `(∑ₖ aₖ wₖ) · r = ∑ₖ aₖ (wₖ r)` — true of real numbers, and false in general on the extended reals (at an
  infinite `r` with terms of both signs), which is where the precondition is used: the activations and the scales
  are real numbers, and a weight is an integer.
-/
import proofs.«166543_j19662360281096_2_alg».proof.Proof.HostRows
import proofs.«166543_j19662360281096_2_alg».proof.Proof.Gen.ReferenceIdeal.Read

noncomputable section

open scoped BigOperators

namespace Cert.Bridge

open Idealize.ShloMosaic Idealize.ShloMosaic.ValueIdx
open Cert.ReferenceIdeal Cert.ReferenceIdeal.Read
open Cert.KernelIdeal.Body (linear)
open Cert.KernelIdeal.Payload (wt)

/-- A finite sum of real numbers, taken on the extended reals, is the real sum. -/
theorem coe_sum {ι : Type} (s : Finset ι) (f : ι → ℝ) : ∑ k ∈ s, ((f k : ℝ) : EReal) = ((∑ k ∈ s, f k : ℝ) : EReal) := by
  classical
  refine Finset.induction_on s ?_ ?_
  · simp
  · intro a s ha ih
    rw [Finset.sum_insert ha, Finset.sum_insert ha, ih, EReal.coe_add]

/-- A real factor moves through a finite sum of products of reals. -/
theorem scale_through_sum {ι : Type} (s : Finset ι) (a w : ι → ℝ) (r : ℝ) :
    (∑ k ∈ s, ((a k : ℝ) : EReal) * ((w k : ℝ) : EReal)) * ((r : ℝ) : EReal)
      = ∑ k ∈ s, ((a k : ℝ) : EReal) * (((w k : ℝ) : EReal) * ((r : ℝ) : EReal)) := by
  simp only [← EReal.coe_mul]
  rw [coe_sum, coe_sum, ← EReal.coe_mul, Finset.sum_mul]
  exact congrArg _ (Finset.sum_congr rfl fun k _ => mul_assoc _ _ _)

/-- The reference's result, for real activations and scales, is `linear` of the arguments. -/
theorem ref_eq_linear (x0 : S16x4096.Idx → EReal) (x1 : S11008x4096.Idx → BitVec 32) (x2 : S11008x1.Idx → EReal)
    (x3 : S11008.Idx → EReal) (hx : ∀ i, ∃ r : ℝ, x0 i = (r : EReal)) (hs : ∀ i, ∃ r : ℝ, x2 i = (r : EReal)) :
    val_main_v6 (F := Ideal) x0 x1 x2 x3
      = linear x0 x1 (fun i' => x2 (ix2 (i' 1) (0 : Fin 1))) (fun i' => x3 (ix1 (i' 1))) := by
  choose a ha using hx
  choose sr hsr using hs
  funext i
  obtain ⟨p, o, rfl⟩ : ∃ (p : Fin 16) (o : Fin 11008), i = ix2 p o := ⟨i 0, i 1, eq_ix2 i⟩
  have el : ∀ k : Fin 4096, lidx_main_v3 (ix2 p o) k = ix2 p k := fun k =>
    funext fun d => by match d with | ⟨0, _⟩ => rfl | ⟨1, _⟩ => rfl
  have er : ∀ k : Fin 4096, ridx_main_v3 (ix2 p o) k = ix2 o k := fun k =>
    funext fun d => by match d with | ⟨0, _⟩ => rfl | ⟨1, _⟩ => rfl
  have e1 : ∀ k : Fin 4096, idx_main_v1 (ix2 o k) = ix2 o (0 : Fin 1) := fun k =>
    funext fun d => by match d with | ⟨0, _⟩ => rfl | ⟨1, _⟩ => rfl
  have e4 : idx_main_v4 (idx_main_v5 (ix2 p o)) = ix1 o :=
    funext fun d => by match d with | ⟨0, _⟩ => rfl
  have hterm : ∀ k : Fin 4096, val_main_v2 (F := Ideal) x1 x2 (ix2 o k)
      = wt (x1 (ix2 o k)) * x2 (ix2 o (0 : Fin 1)) := fun k => by
    rw [val_main_v2_apply, val_main_v0_apply, val_main_v1_apply, e1 k]; rfl
  rw [val_main_v6_apply, val_main_v3_apply, val_main_v5_apply, val_main_v4_apply, e4]
  simp only [el, er, Ideal.addf_def]
  rw [Finset.sum_congr rfl fun k _ => by rw [hterm k]]
  show _ = (∑ k : Fin 4096, x0 (ix2 p k) * wt (x1 (ix2 o k))) * x2 (ix2 o (0 : Fin 1)) + x3 (ix1 o)
  refine congrArg (· + x3 (ix1 o)) ?_
  simp only [ha, hsr]
  exact (scale_through_sum Finset.univ (fun k => a (ix2 p k)) (fun k => ((x1 (ix2 o k)).toInt : ℝ))
    (sr (ix2 o (0 : Fin 1)))).symm

end Cert.Bridge

end
-- ==== Proof.lean ====
/-
  An int8-quantized linear layer: `x · wᵀ` with the per-row scale and the bias, the weights dequantized on the fly.

  The kernel walks the 11008 output features in 22 tiles of 512 (the last tile half outside the arrays): per tile it
  contracts the 16 × 4096 activations with the tile's 512 rows of integer weights, multiplies column `o` by
  `scale (o)` and adds `bias (o)`.  The reference multiplies every weight by its row's scale first and contracts
  afterwards.  Read on the extended reals, with every change of float format the identity, both results are

      (p, o)  ↦  ∑ₖ x (p, k) · w (o, k) · scale (o) + bias (o),

  the factor `scale (o)` outside the sum for the kernel and inside it for the reference; moving it through the sum is
  where finiteness of the activations and the scales is used (a weight is an integer).  The rows of a staging
  buffer past the arrays' end, at the last tile, hold contents nothing names; output column `q` of a tile depends
  only on row `q` of the staged weights and entry `q` of the staged scale and bias rows, and only the columns inside
  the array are written back, so those contents reach no entry of the result.

  The word-level kernel's frame is proved over proof data that states nothing of the buffers' contents
  (FrameBits); the idealized kernel's run names the result array as one function of the arguments (ValueSpec,
  ValueIdeal, HostRows); the reference's run is its generated read-back, shown to be the same function (Bridge);
  Finite turns the precondition into "every entry is a real number".
-/
import proofs.«166543_j19662360281096_2_alg».proof.Defs
import proofs.«166543_j19662360281096_2_alg».proof.Proof.Gen.Kernel
import proofs.«166543_j19662360281096_2_alg».proof.Proof.Gen.KernelIdeal
import proofs.«166543_j19662360281096_2_alg».proof.Proof.Gen.ReferenceIdeal
import proofs.«166543_j19662360281096_2_alg».proof.Proof.Gen.Pre_finite_inputs
import proofs.«166543_j19662360281096_2_alg».proof.Proof.Gen.ReferenceIdeal.Run
import proofs.«166543_j19662360281096_2_alg».proof.Proof.Gen.ReferenceIdeal.Read
import proofs.«166543_j19662360281096_2_alg».proof.Proof.FrameBits
import proofs.«166543_j19662360281096_2_alg».proof.Proof.ValueIdeal
import proofs.«166543_j19662360281096_2_alg».proof.Proof.HostRows
import proofs.«166543_j19662360281096_2_alg».proof.Proof.Finite
import proofs.«166543_j19662360281096_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Body.frame (F := Bits) m ρ

/-- So does its idealization. -/
theorem frame_kernelIdeal : Cert.frame_KernelIdeal := fun m ρ _ => Cert.KernelIdeal.Body.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals, from memories agreeing on the arguments and finite float inputs, the two programs end
    with the same result: `linear` of the arguments. -/
theorem algebraic : Cert.algebraic_KernelIdeal_ReferenceIdeal := by
  intro m ρ m' ρ' hpre hagree
  refine ⟨fun c => Cert.KernelIdeal.Body.Gout m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hs, _⟩ := Cert.Finite.real_of_pre _ _ _ _ (hpre c)
  rw [(hagree c).1, (hagree c).2.1, (hagree c).2.2.1, (hagree c).2.2.2, Cert.ReferenceIdeal.Read.val_main_v6_eq,
    Cert.Bridge.ref_eq_linear _ _ _ _ hx hs]
  exact (Cert.KernelIdeal.Body.Gout_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
